-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x256x56x56 .f32) (main_arg1 : FVec F S16x256 .f32) (main_arg2 : FVec F S16 .f32) (main_arg3 : FVec F S256x16 .f32) (main_arg4 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S64x256x56x56 : Shape := ⟨4, ![64, 256, 56, 56]⟩
abbrev S16x256 : Shape := ⟨2, ![16, 256]⟩
abbrev S16 : Shape := ⟨1, ![16]⟩
abbrev S256x16 : Shape := ⟨2, ![256, 16]⟩
abbrev S256 : Shape := ⟨1, ![256]⟩
abbrev S64x256x3136 : Shape := ⟨3, ![64, 256, 3136]⟩
abbrev S64x256 : Shape := ⟨2, ![64, 256]⟩
abbrev S8x128x3136 : Shape := ⟨3, ![8, 128, 3136]⟩
abbrev S8x128 : Shape := ⟨2, ![8, 128]⟩
abbrev S1x16 : Shape := ⟨2, ![1, 16]⟩
abbrev S1x256 : Shape := ⟨2, ![1, 256]⟩
abbrev S8x256 : Shape := ⟨2, ![8, 256]⟩
abbrev S128x16 : Shape := ⟨2, ![128, 16]⟩
abbrev S1x128 : Shape := ⟨2, ![1, 128]⟩
abbrev S8x16 : Shape := ⟨2, ![8, 16]⟩
abbrev S8x128x1 : Shape := ⟨3, ![8, 128, 1]⟩

abbrev nBuf : Space → Nat
  | .hbm => 11
  | .vmem => 16
  | .smem => 0
  | _ => 0

abbrev bufTy : (tb : Table) → Fin (tcTables nBuf tb) → BufTy
  | .hbm, ⟨0, _⟩ => ⟨S64x256x56x56, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S64x256x3136, .f32⟩
  | .hbm, ⟨6, _⟩ => ⟨S64x256, .f32⟩
  | .hbm, ⟨7, _⟩ => ⟨S1x16, .f32⟩
  | .hbm, ⟨8, _⟩ => ⟨S1x256, .f32⟩
  | .hbm, ⟨9, _⟩ => ⟨S64x256x3136, .f32⟩
  | .hbm, ⟨10, _⟩ => ⟨S64x256x56x56, .f32⟩
  | .local _ .vmem, ⟨0, _⟩ => ⟨S8x128x3136, .f32⟩
  | .local _ .vmem, ⟨1, _⟩ => ⟨S8x128x3136, .f32⟩
  | .local _ .vmem, ⟨2, _⟩ => ⟨S8x128, .f32⟩
  | .local _ .vmem, ⟨3, _⟩ => ⟨S8x128, .f32⟩
  | .local _ .vmem, ⟨4, _⟩ => ⟨S8x128x3136, .f32⟩
  | .local _ .vmem, ⟨5, _⟩ => ⟨S8x128x3136, .f32⟩
  | .local _ .vmem, ⟨6, _⟩ => ⟨S8x256, .f32⟩
  | .local _ .vmem, ⟨7, _⟩ => ⟨S8x256, .f32⟩
  | .local _ .vmem, ⟨8, _⟩ => ⟨S16x256, .f32⟩
  | .local _ .vmem, ⟨9, _⟩ => ⟨S1x16, .f32⟩
  | .local _ .vmem, ⟨10, _⟩ => ⟨S128x16, .f32⟩
  | .local _ .vmem, ⟨11, _⟩ => ⟨S128x16, .f32⟩
  | .local _ .vmem, ⟨12, _⟩ => ⟨S1x128, .f32⟩
  | .local _ .vmem, ⟨13, _⟩ => ⟨S1x128, .f32⟩
  | .local _ .vmem, ⟨14, _⟩ => ⟨S8x128x3136, .f32⟩
  | .local _ .vmem, ⟨15, _⟩ => ⟨S8x128x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x128x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S16x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S128x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S8x128x3136 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S64x256x56x56_S64x256x3136 : S64x256x56x56.ShapeCasts S64x256x3136
  inb_S8x128x3136_S8x128x3136_0_0_0 : ∀ a, (![0, 0, 0] : Fin 3 → Nat) a + S8x128x3136.size a ≤ S8x128x3136.size a
  h_S8x128x3136 : 0 < S8x128x3136.numel
  shapeCasts_S8x128x3136_S8x128x3136 : S8x128x3136.ShapeCasts S8x128x3136
  reduces_S8x128x3136_S8x128 : S8x128x3136.Reduces [2] S8x128
  inb_S8x128_S8x128_0_0 : ∀ a, (![0, 0] : Fin 2 → Nat) a + S8x128.size a ≤ S8x128.size a
  h_S8x128 : 0 < S8x128.numel
  shapeCasts_S16_S1x16 : S16.ShapeCasts S1x16
  shapeCasts_S256_S1x256 : S256.ShapeCasts S1x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S16x256_S16x256_0_0 : ∀ a, (![0, 0] : Fin 2 → Nat) a + S16x256.size a ≤ S16x256.size a
  h_S16x256 : 0 < S16x256.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8x16 : S1x16.Broadcasts S8x16
  inb_S128x16_S128x16_0_0 : ∀ a, (![0, 0] : Fin 2 → Nat) a + S128x16.size a ≤ S128x16.size a
  h_S128x16 : 0 < S128x16.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8x128 : S1x128.Broadcasts S8x128
  shapeCasts_S8x128_S8x128x1 : S8x128.ShapeCasts S8x128x1
  broadcasts_S8x128x1_S8x128x3136 : S8x128x1.Broadcasts S8x128x3136
  shapeCasts_S64x256x3136_S64x256x56x56 : S64x256x3136.ShapeCasts S64x256x56x56
  dot_S8x256_S16x256_S8x16_1_1_0_0_n_n_wf : DotDims.WF S8x256 S16x256 S8x16 [1] [1] [0] [0] [] []
  dot_S8x16_S128x16_S8x128_1_1_0_0_n_n_wf : DotDims.WF S8x16 S128x16 S8x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x3136.size a ≤ S64x256x3136.size a
  hwx0_0 : ∀ i : grid0.Coords, EltTy.bits .f32 = 32 ∨ (Rect.block (s := S64x256x3136) S8x128x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x256.size a
  hwx0_1 : ∀ i : grid0.Coords, EltTy.bits .f32 = 32 ∨ (Rect.block (s := S64x256) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x3136.size a ≤ S64x256x3136.size a
  hwx1_0 : ∀ i : grid1.Coords, EltTy.bits .f32 = 32 ∨ (Rect.block (s := S64x256x3136) S8x128x3136.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S64x256.size a
  hwx1_1 : ∀ i : grid1.Coords, EltTy.bits .f32 = 32 ∨ (Rect.block (s := S64x256) S8x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S16x256.size a
  hwx1_2 : ∀ i : grid1.Coords, EltTy.bits .f32 = 32 ∨ (Rect.block (s := S16x256) S16x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x16.size a ≤ S256x16.size a
  hwx1_4 : ∀ i : grid1.Coords, EltTy.bits .f32 = 32 ∨ (Rect.block (s := S256x16) S128x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x256.size a
  hwx1_5 : ∀ i : grid1.Coords, EltTy.bits .f32 = 32 ∨ (Rect.block (s := S1x256) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128x3136.size a ≤ S64x256x3136.size a
  hwx1_6 : ∀ i : grid1.Coords, EltTy.bits .f32 = 32 ∨ (Rect.block (s := S64x256x3136) S8x128x3136.size (cc1_transform_6 i) (hinb1_6 i)).WholeWords (EltTy.packing .f32)

variable [Facts₀]

def dot_S8x256_S16x256_S8x16_1_1_0_0_n_n : DotDims S8x256 S16x256 S8x16 where
  lhsContracting := [1]
  rhsContracting := [1]
  lhsNonContracting := [0]
  rhsNonContracting := [0]
  lhsBatch := []
  rhsBatch := []
  wf := dot_S8x256_S16x256_S8x16_1_1_0_0_n_n_wf
def dot_S8x16_S128x16_S8x128_1_1_0_0_n_n : DotDims S8x16 S128x16 S8x128 where
  lhsContracting := [1]
  rhsContracting := [1]
  lhsNonContracting := [0]
  rhsNonContracting := [0]
  lhsBatch := []
  rhsBatch := []
  wf := dot_S8x16_S128x16_S8x128_1_1_0_0_n_n_wf

abbrev win0_0 : Pipeline.Window sig grid0 :=
  Pipeline.Window.ofSpec (Memref.whole main_v0) S8x128x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S8x128x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S16x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x16.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4) S8x128x3136.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S64x256 : Shape := ⟨2, ![64, 256]⟩
abbrev S64x16 : Shape := ⟨2, ![64, 16]⟩
abbrev S1x16 : Shape := ⟨2, ![1, 16]⟩
abbrev S1x256 : Shape := ⟨2, ![1, 256]⟩
abbrev S64x256x1x1 : Shape := ⟨4, ![64, 256, 1, 1]⟩

abbrev nBuf : Space → Nat
  | .hbm => 38
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S_, .f32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S64x16, .f32⟩
  | .hbm, ⟨11, _⟩ => ⟨S1x16, .f32⟩
  | .hbm, ⟨12, _⟩ => ⟨S64x16, .f32⟩
  | .hbm, ⟨13, _⟩ => ⟨S64x16, .f32⟩
  | .hbm, ⟨14, _⟩ => ⟨S64x16, .f32⟩
  | .hbm, ⟨15, _⟩ => ⟨S64x16, .f32⟩
  | .hbm, ⟨16, _⟩ => ⟨S_, .f32⟩
  | .hbm, ⟨17, _⟩ => ⟨S64x16, .f32⟩
  | .hbm, ⟨18, _⟩ => ⟨S64x16, .f32⟩
  | .hbm, ⟨19, _⟩ => ⟨S_, .f32⟩
  | .hbm, ⟨20, _⟩ => ⟨S64x16, .f32⟩
  | .hbm, ⟨21, _⟩ => ⟨S64x16, .f32⟩
  | .hbm, ⟨22, _⟩ => ⟨S64x16, .f32⟩
  | .hbm, ⟨23, _⟩ => ⟨S64x256, .f32⟩
  | .hbm, ⟨24, _⟩ => ⟨S1x256, .f32⟩
  | .hbm, ⟨25, _⟩ => ⟨S64x256, .f32⟩
  | .hbm, ⟨26, _⟩ => ⟨S64x256, .f32⟩
  | .hbm, ⟨27, _⟩ => ⟨S64x256, .f32⟩
  | .hbm, ⟨28, _⟩ => ⟨S64x256, .f32⟩
  | .hbm, ⟨29, _⟩ => ⟨S_, .f32⟩
  | .hbm, ⟨30, _⟩ => ⟨S64x256, .f32⟩
  | .hbm, ⟨31, _⟩ => ⟨S64x256, .f32⟩
  | .hbm, ⟨32, _⟩ => ⟨S_, .f32⟩
  | .hbm, ⟨33, _⟩ => ⟨S64x256, .f32⟩
  | .hbm, ⟨34, _⟩ => ⟨S64x256, .f32⟩
  | .hbm, ⟨35, _⟩ => ⟨S64x256x1x1, .f32⟩
  | .hbm, ⟨36, _⟩ => ⟨S64x256x56x56, .f32⟩
  | .hbm, ⟨37, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  reducesTo_S64x256x56x56_S64x256_d2_3 : S64x256x56x56.ReducesTo [2, 3] S64x256
  h_S_ : 0 < S_.numel
  bcast_S_S64x256 : S_.BroadcastsInDim S64x256 (![] : Fin 0 → Fin S64x256.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S64x256_S64x256x1x1_0_1 : S64x256.BroadcastsInDim S64x256x1x1 (![0, 1] : Fin 2 → Fin S64x256x1x1.rank)
  bcast_S64x256x1x1_S64x256x56x56_0_1_2_3 : S64x256x1x1.BroadcastsInDim S64x256x56x56 (![0, 1, 2, 3] : Fin 4 → Fin S64x256x56x56.rank)
  dot_S64x256_S16x256_S64x16_1_1_0_0_n_n_wf : DotDims.WF S64x256 S16x256 S64x16 [1] [1] [0] [0] [] []
  dot_S64x16_S256x16_S64x256_1_1_0_0_n_n_wf : DotDims.WF S64x16 S256x16 S64x256 [1] [1] [0] [0] [] []

variable [Facts₀]

def dot_S64x256_S16x256_S64x16_1_1_0_0_n_n : DotDims S64x256 S16x256 S64x16 where
  lhsContracting := [1]
  rhsContracting := [1]
  lhsNonContracting := [0]
  rhsNonContracting := [0]
  lhsBatch := []
  rhsBatch := []
  wf := dot_S64x256_S16x256_S64x16_1_1_0_0_n_n_wf
def dot_S64x16_S256x16_S64x256_1_1_0_0_n_n : DotDims S64x16 S256x16 S64x256 where
  lhsContracting := [1]
  rhsContracting := [1]
  lhsNonContracting := [0]
  rhsNonContracting := [0]
  lhsBatch := []
  rhsBatch := []
  wf := dot_S64x16_S256x16_S64x256_1_1_0_0_n_n_wf

class Facts : Prop extends Facts₀ where

variable [Facts]
-- ==== Proof.KRun.lean ====
/-
  The idealized kernel's whole run, with every buffer named at the end.

  @main is five segments: a reshape of the input to [64, 256, 3136]; the pooling region; two reshapes of the biases to
  rows; the gating region; the reshape of the result back to [64, 256, 56, 56]. The buffer contents at each boundary are
  a fold from the launch memory (a host stretch applies its operations; a region leaves its arrays at what its
  write-backs leave and everything else as entered). Here the run is stated with its whole final memory: every
  unscoped buffer ends at the last boundary's contents. The result buffer is then read back through the fold: it is
  the reshape of what the gating region leaves in its output array.
-/
import proofs.«150115_j88407606821537_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every unscoped buffer of every core ends at
    the contents of the last boundary of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Whole

end
-- ==== Proof.KFold.lean ====
/-
  The contents of the buffers the two regions read and write, walked back through @main's fold to the launch memory.

  The result buffer is the reshape to [64, 256, 56, 56] of what the gating region leaves in its output array. The
  gating region finds: the input reshaped to [64, 256, 3136] (the pooling region only reads it); the pooled means as the
  pooling region left them; the two weight matrices as launched; and the two biases reshaped to rows [1, 16] and
  [1, 256]. The pooling region finds the input reshaped to [64, 256, 3136].
-/
import proofs.«150115_j88407606821537_2_alg».proof.Proof.KRun

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- The result buffer ends at the reshape of the gating region's output array. -/
theorem result_eq (c : Dev nD) :
    W5 m ρ c (Proc.devRef .tc main_v5)
      = shapeCast S64x256x56x56 ((dat1 (V3 m ρ) c).arrAt 6 cfg1.N) shapeCasts_S64x256x3136_S64x256x56x56 := by
  have e : W4 m ρ c (Proc.devRef .tc main_v4) = (dat1 (V3 m ρ) c).arrAt 6 cfg1.N := W4_arr m ρ c 6
  show StableHlo.after hostOps2 (W4 m ρ c) (Proc.devRef .tc main_v5) = _
  after_results
  rw [e]; rfl

/-- The pooling region enters with the input reshaped to [64, 256, 3136]. -/
theorem V1_x (c : Dev nD) :
    V1 m ρ c main_v0 = shapeCast S64x256x3136 (m ((c : Thread nD τ).loc main_arg0)) shapeCasts_S64x256x56x56_S64x256x3136 := by
  show StableHlo.after hostOps0 (W0 m ρ c) (Proc.devRef .tc main_v0) = _
  after_results
  rfl

/-- The pooling region leaves its input array as it found it. -/
theorem W2_x (c : Dev nD) : W2 m ρ c (Proc.devRef .tc main_v0) = V1 m ρ c main_v0 :=
  (W2_arr m ρ c 0).trans (((dat0 (V1 m ρ) c).arrAt_in 0 rfl _).trans (A_eq0 (V1 m ρ) c 0))

/-- The gating region enters with the same reshaped input. -/
theorem V3_x (c : Dev nD) :
    V3 m ρ c main_v0 = shapeCast S64x256x3136 (m ((c : Thread nD τ).loc main_arg0)) shapeCasts_S64x256x56x56_S64x256x3136 := by
  show StableHlo.after hostOps1 (W2 m ρ c) (Proc.devRef .tc main_v0) = _
  after_results
  rw [W2_x, V1_x]

/-- … with the pooled means as the pooling region's write-backs left them. -/
theorem V3_s (c : Dev nD) : V3 m ρ c main_v1 = (dat0 (V1 m ρ) c).arrAt 1 cfg0.N := by
  show StableHlo.after hostOps1 (W2 m ρ c) (Proc.devRef .tc main_v1) = _
  after_results
  exact W2_arr m ρ c 1

/-- … with the first weight matrix as launched. -/
theorem V3_w1 (c : Dev nD) : V3 m ρ c main_arg1 = m ((c : Thread nD τ).loc main_arg1) := by
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results

/-- … with the second weight matrix as launched. -/
theorem V3_w2 (c : Dev nD) : V3 m ρ c main_arg3 = m ((c : Thread nD τ).loc main_arg3) := by
  show StableHlo.after hostOps1 (W2 m ρ c) (Proc.devRef .tc main_arg3) = _
  after_results
  rw [W2_of_ne m ρ c main_arg3 (by decide)]
  show StableHlo.after hostOps0 (W0 m ρ c) (Proc.devRef .tc main_arg3) = _
  after_results

/-- … with the first bias as a row [1, 16]. -/
theorem V3_b1 (c : Dev nD) :
    V3 m ρ c main_v2 = shapeCast S1x16 (m ((c : Thread nD τ).loc main_arg2)) shapeCasts_S16_S1x16 := by
  have e : W2 m ρ c (Proc.devRef .tc main_arg2) = m ((c : Thread nD τ).loc main_arg2) := by
    rw [W2_of_ne m ρ c main_arg2 (by decide)]
    show StableHlo.after hostOps0 (W0 m ρ c) (Proc.devRef .tc main_arg2) = _
    after_results
  show StableHlo.after hostOps1 (W2 m ρ c) (Proc.devRef .tc main_v2) = _
  after_results
  rw [e]; rfl

/-- … with the second bias as a row [1, 256]. -/
theorem V3_b2 (c : Dev nD) :
    V3 m ρ c main_v3 = shapeCast S1x256 (m ((c : Thread nD τ).loc main_arg4)) shapeCasts_S256_S1x256 := by
  have e : W2 m ρ c (Proc.devRef .tc main_arg4) = m ((c : Thread nD τ).loc main_arg4) := by
    rw [W2_of_ne m ρ c main_arg4 (by decide)]
    show StableHlo.after hostOps0 (W0 m ρ c) (Proc.devRef .tc main_arg4) = _
    after_results
  show StableHlo.after hostOps1 (W2 m ρ c) (Proc.devRef .tc main_v3) = _
  after_results
  rw [e]; rfl

end Cert.KernelIdeal.Whole

end
-- ==== Proof.KPool.lean ====
/-
  What the pooling region leaves in its output array.

  The grid has 8 × 2 points; point (i, j) reads the block of 8 images × 128 channels × 3136 positions at block index
  (i, j, 0) of the [64, 256, 3136] input and writes the block of 8 × 128 means at block index (i, j) of the [64, 256]
  output. The body's stored value at (p, q) is the sum over the 3136 positions of the loaded block at (p, q, ·), divided
  by 3136. A block's entry (p, q, k) is the array's entry (8 i + p, 128 j + q, k), so what a point writes back is its
  block of ONE function of the input array: the mean over the last axis. The 16 output blocks tile the [64, 256]
  array — entry (n, c) lies in the block of the point with block index (n / 8, c / 128) — so the array ends holding
  that function everywhere.
-/
import proofs.«150115_j88407606821537_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Pool

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The mean over the last axis of a [64, 256, 3136] array: the sum of the 3136 entries divided by the float 3136. -/
def means (x : S64x256x3136.Idx → EReal) : S64x256.Idx → EReal :=
  fun j => Ideal.div (∑ k : Fin 3136, x (ix3 (⟨(j 0).val, (j 0).isLt⟩ : Fin 64) (⟨(j 1).val, (j 1).isLt⟩ : Fin 256) k))
    (Ideal.ofBits .f32 0x45440000#32)

theorem means_apply (x : S64x256x3136.Idx → EReal) (n : Fin 64) (c : Fin 256) :
    means x (ix2 n c) = Ideal.div (∑ k : Fin 3136, x (ix3 n c k)) (Ideal.ofBits .f32 0x45440000#32) := rfl

theorem zero2 : (![0, 0] : Fin 2 → Nat) = fun _ => 0 := funext fun a => by fin_cases a <;> rfl
theorem zero3 : (![0, 0, 0] : Fin 3 → Nat) = fun _ => 0 := funext fun a => by fin_cases a <;> rfl

/-- The body's stored value at (p, q): the sum over the positions of the loaded block, divided by 3136. -/
theorem stored_apply (x0 : Vec Ideal S8x128x3136 .f32) (p : Fin 8) (q : Fin 128) :
    k0_pay1 x0 (ix2 p q) = Ideal.div (∑ k : Fin 3136, x0 (ix3 p q k)) (Ideal.ofBits .f32 0x45440000#32) := by
  unfold k0_pay1
  show Ideal.div (multiReduction (F := Ideal) .add [2] S8x128 (shapeCast S8x128x3136 x0 shapeCasts_S8x128x3136_S8x128x3136)
      0x00000000#32 reduces_S8x128x3136_S8x128 (.inl rfl) rfl (ix2 p q)) (Ideal.ofBits .f32 0x45440000#32) = _
  refine congrArg (fun z => Ideal.div z (Ideal.ofBits .f32 0x45440000#32)) ?_
  refine (Ideal.multiReduction_add_single _ 0x00000000#32 reduces_S8x128x3136_S8x128 (.inl rfl) rfl (ix2 p q)).trans ?_
  refine Finset.sum_congr rfl fun k _ => ?_
  rw [shapeCast_self]
  exact congrArg x0 (funext fun a => by
    match a with
    | ⟨0, _⟩ => rfl
    | ⟨1, _⟩ => rfl
    | ⟨2, _⟩ => rfl)

/-- The two windows' block indices at a point: the input's is the output's with a third coordinate 0, and the
    output's stays inside the 8 × 2 blocks. Decided over the 16 points. -/
theorem index_facts : ∀ t : Fin cfg0.N, win0_0.index t (0 : Fin 3) = win0_1.index t (0 : Fin 2)
    ∧ win0_0.index t (1 : Fin 3) = win0_1.index t (1 : Fin 2)
    ∧ win0_0.index t (2 : Fin 3) = 0
    ∧ win0_1.index t (0 : Fin 2) ≤ 7 ∧ win0_1.index t (1 : Fin 2) ≤ 1 :=
  (by decide +kernel : ∀ t : Fin grid0.N, _)

/-- Every block index of the 8 × 2 blocks is some point's. -/
theorem index_onto : ∀ (q0 : Fin 8) (q1 : Fin 2), ∃ t : Fin cfg0.N, win0_1.index t = ![q0.val, q1.val] :=
  (by decide +kernel : ∀ (q0 : Fin 8) (q1 : Fin 2), ∃ t : Fin grid0.N, win0_1.index t = ![q0.val, q1.val])

/-- What point `t` writes back is its block of the means of the input array as the region finds it. -/
theorem flushed_eq (c : Dev nD) (t : Fin cfg0.N) :
    (dat0 V c).flushed 1 t = ((cfg0.win 1).blk t).view.read (Elt Ideal) (means (V c main_v0)) := by
  show (cfg0.win 1).cut (grid0.coords t) ((dat0 V c).after 1 t) = _
  rw [after0_1]
  unfold out0_1
  rw [View.canon_unit_zero zero2]
  simp only [View.ld_unit_zero (S := S8x128x3136) zero3]
  obtain ⟨e0, e1, e2, b0, b1⟩ := index_facts t
  funext j
  obtain ⟨p, q, rfl⟩ : ∃ (p : Fin 8) (q : Fin 128), j = ix2 p q := ⟨j 0, j 1, eq_ix2 j⟩
  refine (stored_apply (iblk0 V c 0 t) p q).trans ?_
  show _ = means (V c main_v0) (((cfg0.win 1).blk t).view.emb (ix2 p q))
  have hout : ((cfg0.win 1).blk t).view.emb (ix2 p q)
      = ix2 (⟨win0_1.index t (0 : Fin 2) * 8 + 1 * p.val, by have := p.isLt; omega⟩ : Fin 64)
          (⟨win0_1.index t (1 : Fin 2) * 128 + 1 * q.val, by have := q.isLt; omega⟩ : Fin 256) := by
    funext a; apply Fin.ext
    match a with
    | ⟨0, _⟩ => rfl
    | ⟨1, _⟩ => rfl
  rw [hout, means_apply]
  refine congrArg (fun z => Ideal.div z (Ideal.ofBits .f32 0x45440000#32)) (Finset.sum_congr rfl fun k _ => ?_)
  show V c main_v0 (((cfg0.win 0).blk t).view.emb (ix3 p q k)) = _
  refine congrArg (V c main_v0) ?_
  funext a; apply Fin.ext
  match a with
  | ⟨0, _⟩ => show win0_0.index t (0 : Fin 3) * 8 + 1 * p.val = win0_1.index t (0 : Fin 2) * 8 + 1 * p.val; omega
  | ⟨1, _⟩ => show win0_0.index t (1 : Fin 3) * 128 + 1 * q.val = win0_1.index t (1 : Fin 2) * 128 + 1 * q.val; omega
  | ⟨2, _⟩ => show win0_0.index t (2 : Fin 3) * 3136 + 1 * k.val = k.val; omega

/-- An index of the output array is in point `t`'s block iff each coordinate is in the block's range on its axis. -/
theorem mem_block (t : Fin cfg0.N) (i : S64x256.Idx) :
    i ∈ ((cfg0.win 1).blk t).view.set
      ↔ ∀ a : Fin 2, win0_1.index t a * S8x128.size a ≤ (i a).val ∧ (i a).val < win0_1.index t a * S8x128.size a + S8x128.size a := by
  show i ∈ ((View.whole main_v1).slice (win0_1.rect t)).set ↔ _
  rw [View.set_slice_whole, Rect.mem_set_unit]
  exact Iff.rfl

/-- The 16 blocks cover the output array. -/
theorem covered (i : S64x256.Idx) :
    ∃ t : Fin cfg0.N, (cfg0.win 1).flush t = true ∧ i ∈ ((cfg0.win 1).blk t).view.set := by
  have hi0 : (i 0).val < 64 := (i 0).isLt
  have hi1 : (i 1).val < 256 := (i 1).isLt
  obtain ⟨t, ht⟩ := index_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [mem_block]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- THE OUTPUT ARRAY after the region: the means of the input array as the region found it. -/
theorem final (c : Dev nD) : (dat0 V c).arrAt 1 cfg0.N = means (V c main_v0) :=
  (dat0 V c).arrAt_eq_of_cover 1 (means (V c main_v0)) (fun t _ => flushed_eq V c t) covered

end Cert.KernelIdeal.Pool

end
-- ==== Proof.Spec.lean ====
/-
  The squeeze-and-excitation block as one function of its five arguments, on the extended reals.

  For image `n` and channel `c`:
    * the pooled mean is the sum of the 3136 = 56 · 56 entries of the channel's map divided by 3136;
    * the hidden unit `j` (16 of them) is the inner product of the pooled row with row `j` of the first weight
      matrix plus its bias, passed through `v ↦ v · σ(v)`, where σ is the logistic function `1 / (1 + e⁻ᵛ)`;
    * the gate is σ of the inner product of the hidden row with row `c` of the second weight matrix plus its bias;
    * every entry of the channel's map is multiplied by the gate.
  The 3136 positions of a map are counted row by row: position `k` is row `k / 56`, column `k % 56`.
-/
import Idealize.ShloMosaic.PureOps.Ideal
import Idealize.ShloMosaic.Lib.ValueIdx

noncomputable section

open scoped BigOperators

namespace Cert.SE

open Idealize.ShloMosaic Idealize.ShloMosaic.ValueIdx

/-- The row of position `k` of a 56 × 56 map counted row by row. -/
abbrev mapRow (k : Fin 3136) : Fin 56 := ⟨k.val / 56, by have := k.isLt; omega⟩
/-- Its column. -/
abbrev mapCol (k : Fin 3136) : Fin 56 := ⟨k.val % 56, Nat.mod_lt _ (by decide)⟩
/-- The position of row `h`, column `w`. -/
abbrev mapPos (h w : Fin 56) : Fin 3136 := ⟨h.val * 56 + w.val, by have := h.isLt; have := w.isLt; omega⟩

theorem mapRow_pos (h w : Fin 56) : mapRow (mapPos h w) = h :=
  Fin.ext (by show (h.val * 56 + w.val) / 56 = h.val; have := w.isLt; omega)
theorem mapCol_pos (h w : Fin 56) : mapCol (mapPos h w) = w :=
  Fin.ext (by show (h.val * 56 + w.val) % 56 = w.val; have := w.isLt; omega)
theorem mapPos_row_col (k : Fin 3136) : mapPos (mapRow k) (mapCol k) = k :=
  Fin.ext (by show k.val / 56 * 56 + k.val % 56 = k.val; omega)

/-- `v · σ(v)`. -/
def swish (v : EReal) : EReal := v * Ideal.logistic v

/-- The mean of a map of 3136 entries: their sum divided by the float 3136. -/
def meanOf (x : Fin 64 → Fin 256 → Fin 3136 → EReal) (n : Fin 64) (c : Fin 256) : EReal :=
  Ideal.div (∑ k : Fin 3136, x n c k) (Ideal.ofBits .f32 0x45440000#32)

/-- The gate of image `n`, channel `c`, from the pooled means `s`, the weights and the biases. -/
def gateOf (s : Fin 64 → Fin 256 → EReal) (w1 : Fin 16 → Fin 256 → EReal) (b1 : Fin 16 → EReal)
    (w2 : Fin 256 → Fin 16 → EReal) (b2 : Fin 256 → EReal) (n : Fin 64) (c : Fin 256) : EReal :=
  Ideal.logistic ((∑ j : Fin 16, swish ((∑ d : Fin 256, s n d * w1 j d) + b1 j) * w2 c j) + b2 c)

/-- The gate from the five argument arrays. -/
def gate (x : (⟨4, ![64, 256, 56, 56]⟩ : Shape).Idx → EReal) (w1 : (⟨2, ![16, 256]⟩ : Shape).Idx → EReal)
    (b1 : (⟨1, ![16]⟩ : Shape).Idx → EReal) (w2 : (⟨2, ![256, 16]⟩ : Shape).Idx → EReal)
    (b2 : (⟨1, ![256]⟩ : Shape).Idx → EReal) (n : Fin 64) (c : Fin 256) : EReal :=
  gateOf (meanOf fun n c k => x (ix4 n c (mapRow k) (mapCol k))) (fun j d => w1 (ix2 j d)) (fun j => b1 (ix1 j))
    (fun c j => w2 (ix2 c j)) (fun c => b2 (ix1 c)) n c

/-- The block's result: every entry times its channel's gate. -/
def scaled (x : (⟨4, ![64, 256, 56, 56]⟩ : Shape).Idx → EReal) (w1 : (⟨2, ![16, 256]⟩ : Shape).Idx → EReal)
    (b1 : (⟨1, ![16]⟩ : Shape).Idx → EReal) (w2 : (⟨2, ![256, 16]⟩ : Shape).Idx → EReal)
    (b2 : (⟨1, ![256]⟩ : Shape).Idx → EReal) : (⟨4, ![64, 256, 56, 56]⟩ : Shape).Idx → EReal :=
  fun i => x i * gate x w1 b1 w2 b2 (i 0) (i 1)

theorem scaled_apply (x : (⟨4, ![64, 256, 56, 56]⟩ : Shape).Idx → EReal) (w1 : (⟨2, ![16, 256]⟩ : Shape).Idx → EReal)
    (b1 : (⟨1, ![16]⟩ : Shape).Idx → EReal) (w2 : (⟨2, ![256, 16]⟩ : Shape).Idx → EReal)
    (b2 : (⟨1, ![256]⟩ : Shape).Idx → EReal) (n : Fin 64) (c : Fin 256) (h w : Fin 56) :
    scaled x w1 b1 w2 b2 (ix4 n c h w) = x (ix4 n c h w) * gate x w1 b1 w2 b2 n c := rfl

end Cert.SE

end
-- ==== Proof.LibDotT.lean ====
/-
  A product of a rows-by-depth array with the TRANSPOSE of a columns-by-depth array, read at an index.

  For dimension numbers that contract the second axis of both operands (the `M × K` by `N × K` product `x · wᵀ`,
  what a linear layer with weights stored output-major computes), the sum over the contraction index that both the
  kernel's matrix unit and the host's `dot_general` denote on the extended reals is `Σ_k l (a, k) · r (b, k)`.
-/
import Idealize.ShloMosaic.PureOps.Ideal.Laws
import Idealize.ShloMosaic.Lib.ValueIdx

noncomputable section

open scoped BigOperators

namespace Cert.LibDotT

open Idealize.ShloMosaic Idealize.ShloMosaic.ValueIdx

variable {M K N : ℕ}

/-- The contraction sum of `x · wᵀ` at output index `(a, b)` is the sum over `k : Fin K` of `l (a, k) · r (b, k)`.
    The dimension numbers are given by their six lists, as a printed record states them. -/
theorem sum_eq (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![N, K]⟩) (so := ⟨2, ![M, N]⟩) [1] [1] [0] [0] [] [] wf).contr.rank = 1 := rfl
  have hs : (DotDims.mk (sl := ⟨2, ![M, K]⟩) (sr := ⟨2, ![N, K]⟩) (so := ⟨2, ![M, N]⟩) [1] [1] [0] [0] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![N, K]⟩) (so := ⟨2, ![M, N]⟩) [1] [1] [0] [0] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![N, K]⟩) (so := ⟨2, ![M, N]⟩) [1] [1] [0] [0] [] [] wf).rhsIdx (ix2 a b) ((contrEquiv1 _ K hr hs).symm k) = ix2 b k := by
    funext d
    match d with
    | ⟨0, _⟩ => rfl
    | ⟨1, _⟩ =>
      refine Fin.ext ?_
      exact (DotDims.rhsIdx_val_of_single _ (cr := 1) rfl (ix2 a b) _).trans (contrEquiv1_symm_val _ K hr hs k)
  rw [el, er]

end Cert.LibDotT

end
-- ==== Proof.LibRank3.lean ====
/-
  Three layout operations of rank 3 read at coordinates, generic in the extents: what a "keepdims" difference
  `x[:, :, None] - w[None, :, :]` is made of.

    * an `[a, b]` array given a trailing unit axis, `[a, b, 1]`, keeps its entries: `(i, j, 0) ↦ (i, j)`;
    * an `[a, b, 1]` array broadcast along its last axis to `[a, b, c]` forgets the last coordinate;
    * a `[1, b, c]` array broadcast along its first axis to `[a, b, c]` forgets the first coordinate.

  Each is the general index lemma of the operation with both indices written by coordinates; an extent that happens
  to be 1 is its own unit axis, and the coordinate there is 0 either way.
-/
import Idealize.ShloMosaic.Lib.Pipeline.Value
import Idealize.ShloMosaic.Lib.ValueIdx

noncomputable section

namespace Cert.LibRank3

open Idealize.ShloMosaic Idealize.ShloMosaic.ValueIdx

variable {α : Type}

/-- An `[a, b]` array cast to `[a, b, 1]` reads, at `(i, j, u)`, the operand at `(i, j)`, whatever the unit coordinate `u`:
    the two indices have the same row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibRank3

end
-- ==== Proof.KGate.lean ====
/-
  What the gating region leaves in its output array.

  The grid has 8 × 2 points; point (i, j) reads the block of 8 images × 128 channels × 3136 positions of the input at
  block index (i, j, 0), the 8 pooled rows at block index (i, 0) with all 256 channels, the whole first weight matrix
  and bias row, the 128 rows of the second weight matrix at block index (j, 0), the 128 entries of the second bias
  row at block index (0, j), and writes the block of the output at block index (i, j, 0). The body computes, for its 8
  images, the 16 hidden units (inner product of the pooled row with a row of the first matrix, plus bias, then
  `v · σ(v)`), then for its 128 channels the gate (σ of the inner product of the hidden row with a row of the second
  matrix, plus bias), and multiplies every position of a channel's map by its gate. A block's entry is the array's
  entry at block index × block size + the coordinate inside the block, so what a point writes back is its block of ONE
  function of the six arrays, and the 16 output blocks tile the [64, 256, 3136] array.
-/
import proofs.«150115_j88407606821537_2_alg».proof.Proof.Gen.KernelIdeal.Frame
import proofs.«150115_j88407606821537_2_alg».proof.Proof.Spec
import proofs.«150115_j88407606821537_2_alg».proof.Proof.LibDotT
import proofs.«150115_j88407606821537_2_alg».proof.Proof.LibRank3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Gate

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The gated array: every entry of the [64, 256, 3136] input times the gate of its image and channel, the gate
    computed from the pooled means `s`, the weight matrices and the bias ROWS [1, 16] and [1, 256]. -/
def gated (x : S64x256x3136.Idx → EReal) (s : S64x256.Idx → EReal) (w1 : S16x256.Idx → EReal) (b1 : S1x16.Idx → EReal)
    (w2 : S256x16.Idx → EReal) (b2 : S1x256.Idx → EReal) : S64x256x3136.Idx → EReal :=
  fun i => x i * SE.gateOf (fun n d => s (ix2 n d)) (fun j d => w1 (ix2 j d)) (fun j => b1 (ix2 (0 : Fin 1) j))
    (fun c j => w2 (ix2 c j)) (fun c => b2 (ix2 (0 : Fin 1) c)) ⟨(i 0).val, (i 0).isLt⟩ ⟨(i 1).val, (i 1).isLt⟩

theorem gated_apply (x : S64x256x3136.Idx → EReal) (s : S64x256.Idx → EReal) (w1 : S16x256.Idx → EReal) (b1 : S1x16.Idx → EReal)
    (w2 : S256x16.Idx → EReal) (b2 : S1x256.Idx → EReal) (n : Fin 64) (c : Fin 256) (k : Fin 3136) :
    gated x s w1 b1 w2 b2 (ix3 n c k)
      = x (ix3 n c k) * SE.gateOf (fun n d => s (ix2 n d)) (fun j d => w1 (ix2 j d)) (fun j => b1 (ix2 (0 : Fin 1) j))
          (fun c j => w2 (ix2 c j)) (fun c => b2 (ix2 (0 : Fin 1) c)) n c := rfl

theorem zero2 : (![0, 0] : Fin 2 → Nat) = fun _ => 0 := funext fun a => by fin_cases a <;> rfl
theorem zero3 : (![0, 0, 0] : Fin 3 → Nat) = fun _ => 0 := funext fun a => by fin_cases a <;> rfl

/-! ## The body's arithmetic at an index -/

/-- The hidden units before the activation: pooled block times the first matrix transposed, plus the bias row. -/
def pre (v0 : FVec Ideal S8x256 .f32) (v2 : FVec Ideal S16x256 .f32) (v3 : FVec Ideal S1x16 .f32) : FVec Ideal S8x16 .f32 :=
  addf (matmul dot_S8x256_S16x256_S8x16_1_1_0_0_n_n none (shapeCast S8x256 v0 shapeCasts_S8x256_S8x256) v2
      (constant (F := Ideal) S8x16 .f32 0x00000000#32))
    (broadcastTo S8x16 (shapeCast S1x16 v3 shapeCasts_S1x16_S1x16) broadcasts_S1x16_S8x16)

theorem pre_apply (v0 : FVec Ideal S8x256 .f32) (v2 : FVec Ideal S16x256 .f32) (v3 : FVec Ideal S1x16 .f32) (p : Fin 8) (j : Fin 16) :
    pre v0 v2 v3 (ix2 p j) = (∑ d : Fin 256, v0 (ix2 p d) * v2 (ix2 j d)) + v3 (ix2 (0 : Fin 1) j) := by
  unfold pre
  rw [addf_apply, broadcastTo_1b_ab_apply, shapeCast_self, shapeCast_self]
  refine congrArg (· + v3 (ix2 (0 : Fin 1) j)) ?_
  refine (Ideal.matmul_constant_zero_apply dot_S8x256_S16x256_S8x16_1_1_0_0_n_n none v0 v2 (ix2 p j)).trans ?_
  exact LibDotT.sum_eq dot_S8x256_S16x256_S8x16_1_1_0_0_n_n rfl rfl rfl rfl rfl rfl v0 v2 p j

/-- The logits of the gate: activated hidden units times the second matrix block transposed, plus the bias row. -/
def logits (v0 : FVec Ideal S8x256 .f32) (v2 : FVec Ideal S16x256 .f32) (v3 : FVec Ideal S1x16 .f32) (v10 : FVec Ideal S128x16 .f32)
    (v11 : FVec Ideal S1x128 .f32) : FVec Ideal S8x128 .f32 :=
  addf (matmul dot_S8x16_S128x16_S8x128_1_1_0_0_n_n none (mulf (pre v0 v2 v3) (logistic (pre v0 v2 v3))) v10
      (constant (F := Ideal) S8x128 .f32 0x00000000#32))
    (broadcastTo S8x128 (shapeCast S1x128 v11 shapeCasts_S1x128_S1x128) broadcasts_S1x128_S8x128)

theorem logits_apply (v0 : FVec Ideal S8x256 .f32) (v2 : FVec Ideal S16x256 .f32) (v3 : FVec Ideal S1x16 .f32) (v10 : FVec Ideal S128x16 .f32)
    (v11 : FVec Ideal S1x128 .f32) (p : Fin 8) (q : Fin 128) :
    logits v0 v2 v3 v10 v11 (ix2 p q)
      = (∑ j : Fin 16, SE.swish ((∑ d : Fin 256, v0 (ix2 p d) * v2 (ix2 j d)) + v3 (ix2 (0 : Fin 1) j)) * v10 (ix2 q j))
        + v11 (ix2 (0 : Fin 1) q) := by
  unfold logits
  rw [addf_apply, broadcastTo_1b_ab_apply, shapeCast_self]
  refine congrArg (· + v11 (ix2 (0 : Fin 1) q)) ?_
  refine (Ideal.matmul_constant_zero_apply dot_S8x16_S128x16_S8x128_1_1_0_0_n_n none
    (mulf (pre v0 v2 v3) (logistic (pre v0 v2 v3))) v10 (ix2 p q)).trans ?_
  refine (LibDotT.sum_eq dot_S8x16_S128x16_S8x128_1_1_0_0_n_n rfl rfl rfl rfl rfl rfl
    (mulf (pre v0 v2 v3) (logistic (pre v0 v2 v3))) v10 p q).trans ?_
  refine Finset.sum_congr rfl fun j _ => ?_
  refine congrArg (· * v10 (ix2 q j)) ?_
  show pre v0 v2 v3 (ix2 p j) * Ideal.logistic (pre v0 v2 v3 (ix2 p j)) = _
  rw [pre_apply]
  rfl

/-- The body's stored value is the loaded input block times the gate broadcast along the positions. -/
theorem stored_eq (v0 : Vec Ideal S8x256 .f32) (v2 : Vec Ideal S16x256 .f32) (v3 : Vec Ideal S1x16 .f32) (v10 : Vec Ideal S128x16 .f32)
    (v11 : Vec Ideal S1x128 .f32) (v17 : Vec Ideal S8x128x3136 .f32) :
    k1_pay1 v0 v2 v3 v10 v11 v17
      = mulf (shapeCast S8x128x3136 v17 shapeCasts_S8x128x3136_S8x128x3136)
          (broadcastTo S8x128x3136 (shapeCast S8x128x1 (logistic (logits v0 v2 v3 v10 v11)) shapeCasts_S8x128_S8x128x1)
            broadcasts_S8x128x1_S8x128x3136) := by
  unfold k1_pay1 logits pre
  rfl

theorem stored_apply (v0 : Vec Ideal S8x256 .f32) (v2 : Vec Ideal S16x256 .f32) (v3 : Vec Ideal S1x16 .f32) (v10 : Vec Ideal S128x16 .f32)
    (v11 : Vec Ideal S1x128 .f32) (v17 : Vec Ideal S8x128x3136 .f32) (p : Fin 8) (q : Fin 128) (k : Fin 3136) :
    k1_pay1 v0 v2 v3 v10 v11 v17 (ix3 p q k)
      = v17 (ix3 p q k) * Ideal.logistic ((∑ j : Fin 16,
            SE.swish ((∑ d : Fin 256, v0 (ix2 p d) * v2 (ix2 j d)) + v3 (ix2 (0 : Fin 1) j)) * v10 (ix2 q j))
          + v11 (ix2 (0 : Fin 1) q)) := by
  rw [stored_eq, mulf_apply, shapeCast_self, LibRank3.broadcastTo_ab1_abc_apply, LibRank3.shapeCast_ab_ab1_apply]
  show v17 (ix3 p q k) * Ideal.logistic (logits v0 v2 v3 v10 v11 (ix2 p q)) = _
  rw [logits_apply]

/-! ## From blocks to the array -/

/-- The seven windows' block indices at a point, against the output's: the input moves with the output; the pooled rows
    follow its image coordinate and take all channels; the first matrix and bias row stay at the origin; the second
    matrix's rows and the second bias's entries follow its channel coordinate; the output's third coordinate is 0 and its
    first two stay inside the 8 × 2 blocks. Decided over the 16 points. -/
theorem index_facts : ∀ t : Fin cfg1.N,
      win1_0.index t (0 : Fin 3) = win1_6.index t (0 : Fin 3)
    ∧ win1_0.index t (1 : Fin 3) = win1_6.index t (1 : Fin 3)
    ∧ win1_0.index t (2 : Fin 3) = 0
    ∧ win1_1.index t (0 : Fin 2) = win1_6.index t (0 : Fin 3)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = win1_6.index t (1 : Fin 3) ∧ win1_4.index t (1 : Fin 2) = 0
    ∧ win1_5.index t (0 : Fin 2) = 0 ∧ win1_5.index t (1 : Fin 2) = win1_6.index t (1 : Fin 3)
    ∧ win1_6.index t (2 : Fin 3) = 0
    ∧ win1_6.index t (0 : Fin 3) ≤ 7 ∧ win1_6.index t (1 : Fin 3) ≤ 1 :=
  (by decide +kernel : ∀ t : Fin grid1.N, _)

/-- Every block index of the 8 × 2 × 1 blocks is some point's. -/
theorem index_onto : ∀ (q0 : Fin 8) (q1 : Fin 2), ∃ t : Fin cfg1.N, win1_6.index t = ![q0.val, q1.val, 0] :=
  (by decide +kernel : ∀ (q0 : Fin 8) (q1 : Fin 2), ∃ t : Fin grid1.N, win1_6.index t = ![q0.val, q1.val, 0])

/-- What point `t` writes back is its block of the gated array of the six arrays as the region finds them. -/
theorem flushed_eq (c : Dev nD) (t : Fin cfg1.N) :
    (dat1 V c).flushed 6 t = ((cfg1.win 6).blk t).view.read (Elt Ideal)
      (gated (V c main_v0) (V c main_v1) (V c main_arg1) (V c main_v2) (V c main_arg3) (V c main_v3)) := by
  show (cfg1.win 6).cut (grid1.coords t) ((dat1 V c).after 6 t) = _
  rw [after1_6]
  unfold out1_6
  rw [View.canon_unit_zero zero3]
  simp only [View.ld_unit_zero (S := S8x128x3136) zero3, View.ld_unit_zero (S := S8x256) zero2,
    View.ld_unit_zero (S := S16x256) zero2, View.ld_unit_zero (S := S1x16) zero2, View.ld_unit_zero (S := S128x16) zero2,
    View.ld_unit_zero (S := S1x128) zero2]
  obtain ⟨e00, e01, e02, e10, e11, e20, e21, e30, e31, e40, e41, e50, e51, e62, b0, b1⟩ := index_facts t
  funext y
  obtain ⟨p, q, k, rfl⟩ : ∃ (p : Fin 8) (q : Fin 128) (k : Fin 3136), y = ix3 p q k := ⟨y 0, y 1, y 2, eq_ix3 y⟩
  refine (stored_apply (iblk1 V c 1 t) (iblk1 V c 2 t) (iblk1 V c 3 t) (iblk1 V c 4 t) (iblk1 V c 5 t) (iblk1 V c 0 t) p q k).trans ?_
  show _ = gated (V c main_v0) (V c main_v1) (V c main_arg1) (V c main_v2) (V c main_arg3) (V c main_v3)
    (((cfg1.win 6).blk t).view.emb (ix3 p q k))
  obtain ⟨N, hN⟩ : ∃ N : Fin 64, N.val = win1_6.index t (0 : Fin 3) * 8 + 1 * p.val :=
    ⟨⟨_, by have := p.isLt; omega⟩, rfl⟩
  obtain ⟨C, hC⟩ : ∃ C : Fin 256, C.val = win1_6.index t (1 : Fin 3) * 128 + 1 * q.val :=
    ⟨⟨_, by have := q.isLt; omega⟩, rfl⟩
  have hout : ((cfg1.win 6).blk t).view.emb (ix3 p q k) = ix3 N C k := by
    funext a; apply Fin.ext
    match a with
    | ⟨0, _⟩ => exact hN.symm
    | ⟨1, _⟩ => exact hC.symm
    | ⟨2, _⟩ => show win1_6.index t (2 : Fin 3) * 3136 + 1 * k.val = k.val; omega
  rw [hout, gated_apply]
  unfold SE.gateOf
  have r0 : iblk1 V c 0 t (ix3 p q k) = V c main_v0 (ix3 N C k) := by
    show V c main_v0 (((cfg1.win 0).blk t).view.emb (ix3 p q k)) = _
    refine congrArg (V c main_v0) ?_
    funext a; apply Fin.ext
    match a with
    | ⟨0, _⟩ => show win1_0.index t (0 : Fin 3) * 8 + 1 * p.val = N.val; omega
    | ⟨1, _⟩ => show win1_0.index t (1 : Fin 3) * 128 + 1 * q.val = C.val; omega
    | ⟨2, _⟩ => show win1_0.index t (2 : Fin 3) * 3136 + 1 * k.val = k.val; omega
  have r1 : ∀ d : Fin 256, iblk1 V c 1 t (ix2 p d) = V c main_v1 (ix2 N d) := fun d => by
    show V c main_v1 (((cfg1.win 1).blk t).view.emb (ix2 p d)) = _
    refine congrArg (V c main_v1) ?_
    funext a; apply Fin.ext
    match a with
    | ⟨0, _⟩ => show win1_1.index t (0 : Fin 2) * 8 + 1 * p.val = N.val; omega
    | ⟨1, _⟩ => show win1_1.index t (1 : Fin 2) * 256 + 1 * d.val = d.val; omega
  have r2 : ∀ (j : Fin 16) (d : Fin 256), iblk1 V c 2 t (ix2 j d) = V c main_arg1 (ix2 j d) := fun j d => by
    show V c main_arg1 (((cfg1.win 2).blk t).view.emb (ix2 j d)) = _
    refine congrArg (V c main_arg1) ?_
    funext a; apply Fin.ext
    match a with
    | ⟨0, _⟩ => show win1_2.index t (0 : Fin 2) * 16 + 1 * j.val = j.val; omega
    | ⟨1, _⟩ => show win1_2.index t (1 : Fin 2) * 256 + 1 * d.val = d.val; omega
  have r3 : ∀ j : Fin 16, iblk1 V c 3 t (ix2 (0 : Fin 1) j) = V c main_v2 (ix2 (0 : Fin 1) j) := fun j => by
    show V c main_v2 (((cfg1.win 3).blk t).view.emb (ix2 (0 : Fin 1) j)) = _
    refine congrArg (V c main_v2) ?_
    funext a; apply Fin.ext
    match a with
    | ⟨0, _⟩ => show win1_3.index t (0 : Fin 2) * 1 + 1 * 0 = 0; omega
    | ⟨1, _⟩ => show win1_3.index t (1 : Fin 2) * 16 + 1 * j.val = j.val; omega
  have r4 : ∀ j : Fin 16, iblk1 V c 4 t (ix2 q j) = V c main_arg3 (ix2 C j) := fun j => by
    show V c main_arg3 (((cfg1.win 4).blk t).view.emb (ix2 q j)) = _
    refine congrArg (V c main_arg3) ?_
    funext a; apply Fin.ext
    match a with
    | ⟨0, _⟩ => show win1_4.index t (0 : Fin 2) * 128 + 1 * q.val = C.val; omega
    | ⟨1, _⟩ => show win1_4.index t (1 : Fin 2) * 16 + 1 * j.val = j.val; omega
  have r5 : iblk1 V c 5 t (ix2 (0 : Fin 1) q) = V c main_v3 (ix2 (0 : Fin 1) C) := by
    show V c main_v3 (((cfg1.win 5).blk t).view.emb (ix2 (0 : Fin 1) q)) = _
    refine congrArg (V c main_v3) ?_
    funext a; apply Fin.ext
    match a with
    | ⟨0, _⟩ => show win1_5.index t (0 : Fin 2) * 1 + 1 * 0 = 0; omega
    | ⟨1, _⟩ => show win1_5.index t (1 : Fin 2) * 128 + 1 * q.val = C.val; omega
  exact congrArg₂ (· * ·) r0 (congrArg Ideal.logistic (congrArg₂ (· + ·)
    (Finset.sum_congr rfl fun j _ => congrArg₂ (· * ·)
      (congrArg SE.swish (congrArg₂ (· + ·) (Finset.sum_congr rfl fun d _ => congrArg₂ (· * ·) (r1 d) (r2 j d)) (r3 j)))
      (r4 j))
    r5))

/-- An index of the output array is in point `t`'s block iff each coordinate is in the block's range on its axis. -/
theorem mem_block (t : Fin cfg1.N) (i : S64x256x3136.Idx) :
    i ∈ ((cfg1.win 6).blk t).view.set
      ↔ ∀ a : Fin 3, win1_6.index t a * S8x128x3136.size a ≤ (i a).val
          ∧ (i a).val < win1_6.index t a * S8x128x3136.size a + S8x128x3136.size a := by
  show i ∈ ((View.whole main_v4).slice (win1_6.rect t)).set ↔ _
  rw [View.set_slice_whole, Rect.mem_set_unit]
  exact Iff.rfl

/-- The 16 blocks cover the output array. -/
theorem covered (i : S64x256x3136.Idx) :
    ∃ t : Fin cfg1.N, (cfg1.win 6).flush t = true ∧ i ∈ ((cfg1.win 6).blk t).view.set := by
  have hi0 : (i 0).val < 64 := (i 0).isLt
  have hi1 : (i 1).val < 256 := (i 1).isLt
  have hi2 : (i 2).val < 3136 := (i 2).isLt
  obtain ⟨t, ht⟩ := index_onto ⟨(i 0).val / 8, by omega⟩ ⟨(i 1).val / 128, by omega⟩
  have q0 : win1_6.index t (0 : Fin 3) = (i 0).val / 8 := congrFun ht 0
  have q1 : win1_6.index t (1 : Fin 3) = (i 1).val / 128 := congrFun ht 1
  have q2 : win1_6.index t (2 : Fin 3) = 0 := congrFun ht 2
  refine ⟨t, flush1_6 t, ?_⟩
  rw [mem_block]
  intro a
  match a with
  | ⟨0, _⟩ => show win1_6.index t (0 : Fin 3) * 8 ≤ (i 0).val ∧ (i 0).val < win1_6.index t (0 : Fin 3) * 8 + 8; omega
  | ⟨1, _⟩ => show win1_6.index t (1 : Fin 3) * 128 ≤ (i 1).val ∧ (i 1).val < win1_6.index t (1 : Fin 3) * 128 + 128; omega
  | ⟨2, _⟩ => show win1_6.index t (2 : Fin 3) * 3136 ≤ (i 2).val ∧ (i 2).val < win1_6.index t (2 : Fin 3) * 3136 + 3136; omega

/-- THE OUTPUT ARRAY after the region: the gated array of the six arrays as the region found them. -/
theorem final (c : Dev nD) :
    (dat1 V c).arrAt 6 cfg1.N
      = gated (V c main_v0) (V c main_v1) (V c main_arg1) (V c main_v2) (V c main_arg3) (V c main_v3) :=
  (dat1 V c).arrAt_eq_of_cover 6 _ (fun t _ => flushed_eq V c t) covered

end Cert.KernelIdeal.Gate

end
-- ==== Proof.KValue.lean ====
/-
  The idealized kernel's result is the squeeze-and-excitation function of the launch arguments.

  The result buffer is the gated [64, 256, 3136] array reshaped to [64, 256, 56, 56]; the gated array is computed from the
  input reshaped to [64, 256, 3136], its means over the last axis, the weight matrices and the biases as rows. The reshape
  keeps the row-major position: entry (n, c, k) of the flat array is entry (n, c, k / 56, k % 56) of the input, and entry
  (n, c, h, w) of the result is entry (n, c, 56 h + w) of the gated array; a bias row's entry (0, j) is the bias's entry j.
  With these readings the two sides are the same expression.
-/
import proofs.«150115_j88407606821537_2_alg».proof.Proof.KFold
import proofs.«150115_j88407606821537_2_alg».proof.Proof.KPool
import proofs.«150115_j88407606821537_2_alg».proof.Proof.KGate
import proofs.«150115_j88407606821537_2_alg».proof.Proof.Spec
import Idealize.ShloMosaic.Lib.ValueLayout

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx
open Idealize.SL.Sem

/-- The input flattened to [64, 256, 3136]: position `k` of a map is row `k / 56`, column `k % 56`. -/
theorem flat_apply {α : Type} (x : S64x256x56x56.Idx → α) (n : Fin 64) (c : Fin 256) (k : Fin 3136) :
    shapeCast S64x256x3136 x shapeCasts_S64x256x56x56_S64x256x3136 (ix3 n c k) = x (ix4 n c (SE.mapRow k) (SE.mapCol k)) :=
  shapeCast_apply x _ _ _ (by
    rw [Shape.rowMajor_val_four, Shape.rowMajor_val_three]
    show ((n.val * 256 + c.val) * 56 + k.val / 56) * 56 + k.val % 56 = (n.val * 256 + c.val) * 3136 + k.val
    omega)

/-- A flat array split back to [64, 256, 56, 56]: row `h`, column `w` is position `56 h + w`. -/
theorem unflat_apply {α : Type} (y : S64x256x3136.Idx → α) (n : Fin 64) (c : Fin 256) (h w : Fin 56) :
    shapeCast S64x256x56x56 y shapeCasts_S64x256x3136_S64x256x56x56 (ix4 n c h w) = y (ix3 n c (SE.mapPos h w)) :=
  shapeCast_apply y _ _ _ (by
    rw [Shape.rowMajor_val_four, Shape.rowMajor_val_three]
    show (n.val * 256 + c.val) * 3136 + (h.val * 56 + w.val) = ((n.val * 256 + c.val) * 56 + h.val) * 56 + w.val
    omega)

/-- The gated flat array of the flattened input, its means, the weights and the bias rows, split back to
    [64, 256, 56, 56], is the specification's function of the five arrays. -/
theorem bridge (x : S64x256x56x56.Idx → EReal) (w1 : S16x256.Idx → EReal) (b1 : S16.Idx → EReal)
    (w2 : S256x16.Idx → EReal) (b2 : S256.Idx → EReal) :
    shapeCast S64x256x56x56
        (Gate.gated (shapeCast S64x256x3136 x shapeCasts_S64x256x56x56_S64x256x3136)
          (Pool.means (shapeCast S64x256x3136 x shapeCasts_S64x256x56x56_S64x256x3136)) w1
          (shapeCast S1x16 b1 shapeCasts_S16_S1x16) w2 (shapeCast S1x256 b2 shapeCasts_S256_S1x256))
        shapeCasts_S64x256x3136_S64x256x56x56
      = SE.scaled x w1 b1 w2 b2 := by
  funext i
  obtain ⟨n, ch, h, w, rfl⟩ : ∃ (n : Fin 64) (ch : Fin 256) (h w : Fin 56), i = ix4 n ch h w := ⟨i 0, i 1, i 2, i 3, eq_ix4 i⟩
  rw [unflat_apply, Gate.gated_apply, SE.scaled_apply, flat_apply, SE.mapRow_pos, SE.mapCol_pos]
  unfold SE.gate
  refine congrArg (x (ix4 n ch h w) * ·) ?_
  have hs : (fun (n : Fin 64) (d : Fin 256) =>
        Pool.means (shapeCast S64x256x3136 x shapeCasts_S64x256x56x56_S64x256x3136) (ix2 n d))
      = SE.meanOf fun n c k => x (ix4 n c (SE.mapRow k) (SE.mapCol k)) := by
    funext n d
    rw [Pool.means_apply]
    unfold SE.meanOf
    exact congrArg (fun z => Ideal.div z (Ideal.ofBits .f32 0x45440000#32)) (Finset.sum_congr rfl fun k _ => flat_apply x n d k)
  have hb1 : (fun j : Fin 16 => shapeCast S1x16 b1 shapeCasts_S16_S1x16 (ix2 (0 : Fin 1) j)) = fun j => b1 (ix1 j) :=
    funext fun j => shapeCast_a_1a_apply b1 shapeCasts_S16_S1x16 0 j
  have hb2 : (fun d : Fin 256 => shapeCast S1x256 b2 shapeCasts_S256_S1x256 (ix2 (0 : Fin 1) d)) = fun d => b2 (ix1 d) :=
    funext fun d => shapeCast_a_1a_apply b2 shapeCasts_S256_S1x256 0 d
  rw [hs, hb1, hb2]

variable (m : (ℓ : Loc nD τ sig) → Buf (Elt Ideal) ℓ) (ρ : Dev nD → PrngReg)

/-- THE RESULT BUFFER at the end of the run is the specification's function of the five launch arguments. -/
theorem result_value (c : Dev nD) :
    W5 m ρ c (Proc.devRef .tc main_v5)
      = SE.scaled (m ((c : Thread nD τ).loc main_arg0)) (m ((c : Thread nD τ).loc main_arg1)) (m ((c : Thread nD τ).loc main_arg2))
          (m ((c : Thread nD τ).loc main_arg3)) (m ((c : Thread nD τ).loc main_arg4)) := by
  rw [result_eq, Gate.final (V3 m ρ) c, V3_x, V3_s, V3_w1, V3_b1, V3_w2, V3_b2, Pool.final (V1 m ρ) c, V1_x]
  exact bridge _ _ _ _ _

end Cert.KernelIdeal.Whole

end
-- ==== Proof.RefIsSpec.lean ====
/-
  The reference is the squeeze-and-excitation function of the specification, index by index.

  Its pooled mean is the host's sum over the two map axes (the initial value 0 plus the sum of every entry whose image
  and channel are the given ones) divided by 3136; the entries with image `n` and channel `c` are exactly the entries
  (n, c, k / 56, k % 56) for k below 3136, each once, so that sum is the specification's sum over positions. The two
  inner products contract the second axis of both operands, the biases are broadcast as rows, and the logistic function
  is spelled `1 / (1 + exp (-v))` in host operations, which is the logistic function of the extended reals.
-/
import proofs.«150115_j88407606821537_2_alg».proof.Proof.Gen.ReferenceIdeal.Read
import proofs.«150115_j88407606821537_2_alg».proof.Proof.Spec
import Idealize.ShloMosaic.Lib.IdealHost

set_option maxRecDepth 16384

noncomputable section

open scoped BigOperators

namespace Cert.ReferenceIdeal.IsSpec

open Cert.ReferenceIdeal Cert.ReferenceIdeal.Gen Cert.ReferenceIdeal.Read
open Idealize.ShloMosaic Idealize.ShloMosaic.TcCoe Idealize.ShloMosaic.ValueIdx

/-- The entries of a [64, 256, 56, 56] array whose image is `n` and channel is `c`, summed: the sum over the 3136
    positions of the map. -/
theorem sum_over_map (x0 : S64x256x56x56.Idx → EReal) (n : Fin 64) (c : Fin 256) :
    ∑ i ∈ Finset.univ.filter (fun i => reducesTo_S64x256x56x56_S64x256_d2_3.drop i = ix2 n c), x0 i
      = ∑ k : Fin 3136, x0 (ix4 n c (SE.mapRow k) (SE.mapCol k)) := by
  have hdrop : ∀ i : S64x256x56x56.Idx, reducesTo_S64x256x56x56_S64x256_d2_3.drop i = ix2 n c ↔ ((i 0).val = n.val ∧ (i 1).val = c.val) := by
    intro i
    have d0 : (reducesTo_S64x256x56x56_S64x256_d2_3.drop i 0 : Nat) = i 0 :=
      Shape.ReducesTo.drop_apply_val_of_eq reducesTo_S64x256x56x56_S64x256_d2_3 i 0 0
    have d1 : (reducesTo_S64x256x56x56_S64x256_d2_3.drop i 1 : Nat) = i 1 :=
      Shape.ReducesTo.drop_apply_val_of_eq reducesTo_S64x256x56x56_S64x256_d2_3 i 1 1
    constructor
    · intro h
      have h0 := congrArg (fun j : S64x256.Idx => (j 0).val) h
      have h1 := congrArg (fun j : S64x256.Idx => (j 1).val) h
      exact ⟨d0.symm.trans h0, d1.symm.trans h1⟩
    · rintro ⟨h0, h1⟩
      funext b; apply Fin.ext
      match b with
      | ⟨0, _⟩ => exact d0.trans h0
      | ⟨1, _⟩ => exact d1.trans h1
  symm
  refine Finset.sum_bij (fun k _ => ix4 n c (SE.mapRow k) (SE.mapCol k)) ?_ ?_ ?_ (fun _ _ => rfl)
  · intro k _
    exact Finset.mem_filter.mpr ⟨Finset.mem_univ _, (hdrop _).mpr ⟨rfl, rfl⟩⟩
  · intro k _ k' _ h
    have h2 : SE.mapRow k = SE.mapRow k' := congrFun h 2
    have h3 : SE.mapCol k = SE.mapCol k' := congrFun h 3
    rw [← SE.mapPos_row_col k, ← SE.mapPos_row_col k', h2, h3]
  · intro i hi
    obtain ⟨a0, a1, h, w, rfl⟩ : ∃ (a0 : Fin 64) (a1 : Fin 256) (h w : Fin 56), i = ix4 a0 a1 h w :=
      ⟨i 0, i 1, i 2, i 3, eq_ix4 i⟩
    obtain ⟨h0, h1⟩ := (hdrop _).mp (Finset.mem_filter.mp hi).2
    have e0 : a0 = n := Fin.ext h0
    have e1 : a1 = c := Fin.ext h1
    subst e0 e1
    exact ⟨SE.mapPos h w, Finset.mem_univ _, by rw [SE.mapRow_pos, SE.mapCol_pos]⟩

/-- The reference's pooled mean. -/
theorem pooled_eq (x0 : (⟨S64x256x56x56, .f32⟩ : BufTy).Contents (Elt Ideal)) (n : Fin 64) (c : Fin 256) :
    val_main_v2 (F := Ideal) x0 (ix2 n c) = SE.meanOf (fun n c k => x0 (ix4 n c (SE.mapRow k) (SE.mapCol k))) n c := by
  rw [val_main_v2_apply, val_main_v1_apply, val_main_cst_0_apply]
  show Ideal.div (Ideal.hostReduceAdd reducesTo_S64x256x56x56_S64x256_d2_3 x0 (Ideal.ofBits .f32 0x00000000#32) (ix2 n c))
      (Ideal.ofBits .f32 0x45440000#32) = _
  unfold Ideal.hostReduceAdd SE.meanOf
  rw [Ideal.ofBits_zero_f32, zero_add, sum_over_map]

/-- `1 / (1 + exp (-y))` in the host's operations is the logistic function. -/
theorem host_logistic (y : EReal) :
    FloatOps.hostDivf (F := Ideal) (φ := .f32) (FloatOps.ofBits .f32 0x3F800000#32)
        (FloatOps.addf (FloatOps.ofBits .f32 0x3F800000#32) (FloatOps.hostUnary .exp (FloatOps.hostNegf y)))
      = Ideal.logistic y := by
  simp only [Ideal.ofBits_def, Ideal.ofBits_one_f32]
  rfl

/-- The reference's hidden unit before the activation. -/
theorem hidden_eq (x0 : (⟨S64x256x56x56, .f32⟩ : BufTy).Contents (Elt Ideal)) (x1 : (⟨S16x256, .f32⟩ : BufTy).Contents (Elt Ideal))
    (x2 : (⟨S16, .f32⟩ : BufTy).Contents (Elt Ideal)) (n : Fin 64) (j : Fin 16) :
    val_main_v6 (F := Ideal) x0 x1 x2 (ix2 n j)
      = (∑ d : Fin 256, SE.meanOf (fun n c k => x0 (ix4 n c (SE.mapRow k) (SE.mapCol k))) n d * x1 (ix2 j d)) + x2 (ix1 j) := by
  rw [val_main_v6_apply, val_main_v3_apply, val_main_v5_apply, val_main_v4_apply]
  have el : ∀ d : Fin 256, lidx_main_v3 (ix2 n j) d = ix2 n d := fun d => funext fun a => by
    match a with
    | ⟨0, _⟩ => rfl
    | ⟨1, _⟩ => rfl
  have er : ∀ d : Fin 256, ridx_main_v3 (ix2 n j) d = ix2 j d := fun d => funext fun a => by
    match a with
    | ⟨0, _⟩ => rfl
    | ⟨1, _⟩ => rfl
  have eb : idx_main_v4 (idx_main_v5 (ix2 n j)) = ix1 j := funext fun a => by
    match a with
    | ⟨0, _⟩ => rfl
  rw [eb]
  show (∑ d : Fin 256, val_main_v2 (F := Ideal) x0 (lidx_main_v3 (ix2 n j) d) * x1 (ridx_main_v3 (ix2 n j) d)) + x2 (ix1 j) = _
  refine congrArg (· + x2 (ix1 j)) (Finset.sum_congr rfl fun d _ => ?_)
  rw [el, er, pooled_eq]

/-- The reference's activated hidden unit. -/
theorem swish_eq (x0 : (⟨S64x256x56x56, .f32⟩ : BufTy).Contents (Elt Ideal)) (x1 : (⟨S16x256, .f32⟩ : BufTy).Contents (Elt Ideal))
    (x2 : (⟨S16, .f32⟩ : BufTy).Contents (Elt Ideal)) (n : Fin 64) (j : Fin 16) :
    val_main_v13 (F := Ideal) x0 x1 x2 (ix2 n j) = SE.swish (val_main_v6 (F := Ideal) x0 x1 x2 (ix2 n j)) := by
  rw [val_main_v13_apply, val_main_v12_apply, val_main_v11_apply, val_main_cst_2_apply, val_main_v10_apply, val_main_v9_apply,
    val_main_cst_1_apply, val_main_v8_apply, val_main_v7_apply, host_logistic]
  rfl

/-- The reference's gate. -/
theorem gate_eq (x0 : (⟨S64x256x56x56, .f32⟩ : BufTy).Contents (Elt Ideal)) (x1 : (⟨S16x256, .f32⟩ : BufTy).Contents (Elt Ideal))
    (x2 : (⟨S16, .f32⟩ : BufTy).Contents (Elt Ideal)) (x3 : (⟨S256x16, .f32⟩ : BufTy).Contents (Elt Ideal))
    (x4 : (⟨S256, .f32⟩ : BufTy).Contents (Elt Ideal)) (n : Fin 64) (c : Fin 256) :
    val_main_v23 (F := Ideal) x0 x1 x2 x3 x4 (ix2 n c) = SE.gate x0 x1 x2 x3 x4 n c := by
  rw [val_main_v23_apply, val_main_v22_apply, val_main_cst_4_apply, val_main_v21_apply, val_main_v20_apply,
    val_main_cst_3_apply, val_main_v19_apply, val_main_v18_apply, host_logistic, val_main_v17_apply,
    val_main_v14_apply, val_main_v16_apply, val_main_v15_apply]
  have el : ∀ j : Fin 16, lidx_main_v14 (ix2 n c) j = ix2 n j := fun j => funext fun a => by
    match a with
    | ⟨0, _⟩ => rfl
    | ⟨1, _⟩ => rfl
  have er : ∀ j : Fin 16, ridx_main_v14 (ix2 n c) j = ix2 c j := fun j => funext fun a => by
    match a with
    | ⟨0, _⟩ => rfl
    | ⟨1, _⟩ => rfl
  have eb : idx_main_v15 (idx_main_v16 (ix2 n c)) = ix1 c := funext fun a => by
    match a with
    | ⟨0, _⟩ => rfl
  rw [eb]
  unfold SE.gate SE.gateOf
  refine congrArg Ideal.logistic ?_
  show (∑ j : Fin 16, val_main_v13 (F := Ideal) x0 x1 x2 (lidx_main_v14 (ix2 n c) j) * x3 (ridx_main_v14 (ix2 n c) j)) + x4 (ix1 c) = _
  refine congrArg (· + x4 (ix1 c)) (Finset.sum_congr rfl fun j _ => ?_)
  rw [el, er, swish_eq, hidden_eq]

/-- THE REFERENCE'S RESULT is the specification's function of the five arguments. -/
theorem result_eq (x0 : (⟨S64x256x56x56, .f32⟩ : BufTy).Contents (Elt Ideal)) (x1 : (⟨S16x256, .f32⟩ : BufTy).Contents (Elt Ideal))
    (x2 : (⟨S16, .f32⟩ : BufTy).Contents (Elt Ideal)) (x3 : (⟨S256x16, .f32⟩ : BufTy).Contents (Elt Ideal))
    (x4 : (⟨S256, .f32⟩ : BufTy).Contents (Elt Ideal)) :
    val_main_v26 (F := Ideal) x0 x1 x2 x3 x4 = SE.scaled x0 x1 x2 x3 x4 := by
  funext i
  obtain ⟨n, c, h, w, rfl⟩ : ∃ (n : Fin 64) (c : Fin 256) (h w : Fin 56), i = ix4 n c h w := ⟨i 0, i 1, i 2, i 3, eq_ix4 i⟩
  rw [val_main_v26_apply, val_main_v25_apply, val_main_v24_apply, SE.scaled_apply]
  have e : idx_main_v24 (idx_main_v25 (ix4 n c h w)) = ix2 n c := funext fun a => by
    match a with
    | ⟨0, _⟩ => rfl
    | ⟨1, _⟩ => rfl
  rw [e, gate_eq]
  rfl

end Cert.ReferenceIdeal.IsSpec

end
-- ==== Proof.lean ====
/-
  A squeeze-and-excitation block in two kernel regions against its jnp reference, on the extended reals.

  The kernel flattens the 56 × 56 maps of its [64, 256, 56, 56] input to 3136 positions, takes the mean of every map in
  a first region, and in a second region recomputes, per block of 8 images × 128 channels, the gate — the 16 hidden
  units `v · σ(v)` of the pooled row against the first weight matrix, then σ of the hidden row against the second — and
  multiplies every position by its channel's gate; the result is reshaped back. The reference takes the mean over the two
  map axes at once, computes the same two inner products over all 64 images, spells σ as `1 / (1 + exp (-v))`, and
  broadcasts the gate over the maps. Both are the specification's one function of the five arguments (Proof/Spec.lean):
  the kernel by reading its run's final memory back through the two regions (Proof/KRun, KFold, KPool, KGate, KValue), the
  reference by reading its run one operation at a time (Proof/RefIsSpec). Only commutativity and associativity of the sum
  over a map's positions are used, so the finiteness of the inputs is never opened. The idealization rewrote nothing, so
  the kernel's program read at the extended reals is its own idealization.
-/
import proofs.«150115_j88407606821537_2_alg».proof.Defs
import proofs.«150115_j88407606821537_2_alg».proof.Proof.Gen.Kernel
import proofs.«150115_j88407606821537_2_alg».proof.Proof.Gen.Kernel.Skeleton
import proofs.«150115_j88407606821537_2_alg».proof.Proof.Gen.Kernel.Launch
import proofs.«150115_j88407606821537_2_alg».proof.Proof.Gen.Kernel.Points
import proofs.«150115_j88407606821537_2_alg».proof.Proof.Gen.Kernel.Frame
import proofs.«150115_j88407606821537_2_alg».proof.Proof.Gen.KernelIdeal
import proofs.«150115_j88407606821537_2_alg».proof.Proof.Gen.KernelIdeal.Skeleton
import proofs.«150115_j88407606821537_2_alg».proof.Proof.Gen.KernelIdeal.Launch
import proofs.«150115_j88407606821537_2_alg».proof.Proof.Gen.KernelIdeal.Points
import proofs.«150115_j88407606821537_2_alg».proof.Proof.Gen.KernelIdeal.Frame
import proofs.«150115_j88407606821537_2_alg».proof.Proof.Gen.ReferenceIdeal
import proofs.«150115_j88407606821537_2_alg».proof.Proof.Gen.ReferenceIdeal.Run
import proofs.«150115_j88407606821537_2_alg».proof.Proof.Gen.ReferenceIdeal.Read
import proofs.«150115_j88407606821537_2_alg».proof.Proof.Gen.Pre_finite_inputs
import proofs.«150115_j88407606821537_2_alg».proof.Proof.KValue
import proofs.«150115_j88407606821537_2_alg».proof.Proof.RefIsSpec
import Idealize.ShloMosaic.Adequacy
import Idealize.ShloMosaic.Init

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre : Cert.Pre_finite_inputs.Facts]

/-- The kernel as printed runs and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the specification's function of them in
    their result buffers, and their arguments unchanged. -/
theorem algebraic : Cert.algebraic_KernelIdeal_ReferenceIdeal := by
  intro m ρ m' ρ' _ hagree
  refine ⟨fun c => Cert.SE.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Whole.run_all m ρ)
    exact ⟨(h c _ (Cert.KernelIdeal.Gen.mem_uc Cert.KernelIdeal.main_v5 (by decide))).trans (Cert.KernelIdeal.Whole.result_value m ρ c),
      (h c _ (Cert.KernelIdeal.Gen.mem_uc Cert.KernelIdeal.main_arg0 (by decide))).trans (Cert.KernelIdeal.Gen.W5_main_arg0 m ρ c),
      (h c _ (Cert.KernelIdeal.Gen.mem_uc Cert.KernelIdeal.main_arg1 (by decide))).trans (Cert.KernelIdeal.Gen.W5_main_arg1 m ρ c),
      (h c _ (Cert.KernelIdeal.Gen.mem_uc Cert.KernelIdeal.main_arg2 (by decide))).trans (Cert.KernelIdeal.Gen.W5_main_arg2 m ρ c),
      (h c _ (Cert.KernelIdeal.Gen.mem_uc Cert.KernelIdeal.main_arg3 (by decide))).trans (Cert.KernelIdeal.Gen.W5_main_arg3 m ρ c),
      (h c _ (Cert.KernelIdeal.Gen.mem_uc Cert.KernelIdeal.main_arg4 (by decide))).trans (Cert.KernelIdeal.Gen.W5_main_arg4 m ρ c)⟩
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v26_eq _ _ _ _ _).trans ((Cert.ReferenceIdeal.IsSpec.result_eq _ _ _ _ _).trans ?_)
    rw [(hagree c).1, (hagree c).2.1, (hagree c).2.2.1, (hagree c).2.2.2.1, (hagree c).2.2.2.2]

end Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
